-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S200000x128 .f32) (main_arg1 : IVec S2x6400000 32) (main_arg2 : FVec F S128x1 .f32) (main_arg3 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S4000x128 : Shape := ⟨2, ![4000, 128]⟩
abbrev S4000x1 : Shape := ⟨2, ![4000, 1]⟩
abbrev S1x1 : Shape := ⟨2, ![1, 1]⟩

abbrev nBuf : Space → Nat
  | .hbm => 51
  | .vmem => 14
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x1, .f32⟩
  | .hbm, ⟨3, _⟩ => ⟨S1, .f32⟩
  | .hbm, ⟨4, _⟩ => ⟨S200000, .i32⟩
  | .hbm, ⟨5, _⟩ => ⟨S1x6400000, .i32⟩
  | .hbm, ⟨6, _⟩ => ⟨S6400000, .i32⟩
  | .hbm, ⟨7, _⟩ => ⟨S6600000, .i32⟩
  | .hbm, ⟨8, _⟩ => ⟨S1x6400000, .i32⟩
  | .hbm, ⟨9, _⟩ => ⟨S6400000, .i32⟩
  | .hbm, ⟨10, _⟩ => ⟨S6600000, .i32⟩
  | .hbm, ⟨11, _⟩ => ⟨S_, .f32⟩
  | .hbm, ⟨12, _⟩ => ⟨S6600000, .f32⟩
  | .hbm, ⟨13, _⟩ => ⟨S_, .f32⟩
  | .hbm, ⟨14, _⟩ => ⟨S200000, .f32⟩
  | .hbm, ⟨15, _⟩ => ⟨S6600000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S200000x1, .f32⟩
  | .hbm, ⟨34, _⟩ => ⟨S200000, .f32⟩
  | .hbm, ⟨35, _⟩ => ⟨S_, .i32⟩
  | .hbm, ⟨36, _⟩ => ⟨S6600000, .i32⟩
  | .hbm, ⟨37, _⟩ => ⟨S6600000, .i1⟩
  | .hbm, ⟨38, _⟩ => ⟨S_, .i32⟩
  | .hbm, ⟨39, _⟩ => ⟨S6600000, .i32⟩
  | .hbm, ⟨40, _⟩ => ⟨S6600000, .i32⟩
  | .hbm, ⟨41, _⟩ => ⟨S6600000, .i32⟩
  | .hbm, ⟨42, _⟩ => ⟨S6600000x1, .i32⟩
  | .hbm, ⟨43, _⟩ => ⟨S6600000, .f32⟩
  | .hbm, ⟨44, _⟩ => ⟨S_, .f32⟩
  | .hbm, ⟨45, _⟩ => ⟨S200000, .f32⟩
  | .hbm, ⟨46, _⟩ => ⟨S6600000x1, .i32⟩
  | .hbm, ⟨47, _⟩ => ⟨S200000, .f32⟩
  | .hbm, ⟨48, _⟩ => ⟨S200000x1, .f32⟩
  | .hbm, ⟨49, _⟩ => ⟨S1x1, .f32⟩
  | .hbm, ⟨50, _⟩ => ⟨S200000x1, .f32⟩
  | .local _ .vmem, ⟨0, _⟩ => ⟨S4000x128, .f32⟩
  | .local _ .vmem, ⟨1, _⟩ => ⟨S4000x128, .f32⟩
  | .local _ .vmem, ⟨2, _⟩ => ⟨S128x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S1x1, .f32⟩
  | .local _ .vmem, ⟨12, _⟩ => ⟨S4000x1, .f32⟩
  | .local _ .vmem, ⟨13, _⟩ => ⟨S4000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S200000_S200000x1 : S200000.ShapeCasts S200000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S200000x1_S200000 : S200000x1.ShapeCasts S200000
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S200000_S6600000x1_S6600000_n_0_0_1_wf : ScatterDims.WF S200000 S6600000x1 S6600000 [] [0] [0] 1
  dot_S4000x128_S128x1_S4000x1_1_0_0_1_n_n_wf : DotDims.WF S4000x128 S128x1 S4000x1 [1] [0] [0] [1] [] []
  gather_S200000_S6600000x1_S6600000_n_0_n_n_0_1_1_wf : GatherDims.WF S200000 S6600000x1 S6600000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S200000x1.size a
  hwx1_0 : ∀ i : grid1.Coords, EltTy.bits .f32 = 32 ∨ (Rect.block (s := S200000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S200000x1.size a
  hwx1_3 : ∀ i : grid1.Coords, EltTy.bits .f32 = 32 ∨ (Rect.block (s := S200000x1) S4000x1.size (cc1_transform_3 i) (hinb1_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x1 : Shape := ⟨2, ![128, 1]⟩
abbrev S1 : Shape := ⟨1, ![1]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x1 : Shape := ⟨2, ![200000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x1, .f32⟩
  | .hbm, ⟨3, _⟩ => ⟨S1, .f32⟩
  | .hbm, ⟨4, _⟩ => ⟨S200000, .i32⟩
  | .hbm, ⟨5, _⟩ => ⟨S1x6400000, .i32⟩
  | .hbm, ⟨6, _⟩ => ⟨S6400000, .i32⟩
  | .hbm, ⟨7, _⟩ => ⟨S6600000, .i32⟩
  | .hbm, ⟨8, _⟩ => ⟨S1x6400000, .i32⟩
  | .hbm, ⟨9, _⟩ => ⟨S6400000, .i32⟩
  | .hbm, ⟨10, _⟩ => ⟨S6600000, .i32⟩
  | .hbm, ⟨11, _⟩ => ⟨S_, .f32⟩
  | .hbm, ⟨12, _⟩ => ⟨S6600000, .f32⟩
  | .hbm, ⟨13, _⟩ => ⟨S_, .f32⟩
  | .hbm, ⟨14, _⟩ => ⟨S200000, .f32⟩
  | .hbm, ⟨15, _⟩ => ⟨S6600000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .i1⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S6600000, .i32⟩
  | .hbm, ⟨34, _⟩ => ⟨S6600000, .i1⟩
  | .hbm, ⟨35, _⟩ => ⟨S_, .i32⟩
  | .hbm, ⟨36, _⟩ => ⟨S6600000, .i32⟩
  | .hbm, ⟨37, _⟩ => ⟨S6600000, .i32⟩
  | .hbm, ⟨38, _⟩ => ⟨S6600000, .i32⟩
  | .hbm, ⟨39, _⟩ => ⟨S6600000x1, .i32⟩
  | .hbm, ⟨40, _⟩ => ⟨S6600000, .f32⟩
  | .hbm, ⟨41, _⟩ => ⟨S_, .i32⟩
  | .hbm, ⟨42, _⟩ => ⟨S6600000, .i32⟩
  | .hbm, ⟨43, _⟩ => ⟨S6600000, .i1⟩
  | .hbm, ⟨44, _⟩ => ⟨S_, .i32⟩
  | .hbm, ⟨45, _⟩ => ⟨S6600000, .i32⟩
  | .hbm, ⟨46, _⟩ => ⟨S6600000, .i32⟩
  | .hbm, ⟨47, _⟩ => ⟨S6600000, .i32⟩
  | .hbm, ⟨48, _⟩ => ⟨S6600000x1, .i32⟩
  | .hbm, ⟨49, _⟩ => ⟨S6600000, .f32⟩
  | .hbm, ⟨50, _⟩ => ⟨S6600000, .f32⟩
  | .hbm, ⟨51, _⟩ => ⟨S200000x1, .f32⟩
  | .hbm, ⟨52, _⟩ => ⟨S_, .i32⟩
  | .hbm, ⟨53, _⟩ => ⟨S6600000, .i32⟩
  | .hbm, ⟨54, _⟩ => ⟨S6600000, .i1⟩
  | .hbm, ⟨55, _⟩ => ⟨S_, .i32⟩
  | .hbm, ⟨56, _⟩ => ⟨S6600000, .i32⟩
  | .hbm, ⟨57, _⟩ => ⟨S6600000, .i32⟩
  | .hbm, ⟨58, _⟩ => ⟨S6600000, .i32⟩
  | .hbm, ⟨59, _⟩ => ⟨S6600000x1, .i32⟩
  | .hbm, ⟨60, _⟩ => ⟨S6600000x1, .f32⟩
  | .hbm, ⟨61, _⟩ => ⟨S6600000x1, .f32⟩
  | .hbm, ⟨62, _⟩ => ⟨S6600000x1, .f32⟩
  | .hbm, ⟨63, _⟩ => ⟨S_, .f32⟩
  | .hbm, ⟨64, _⟩ => ⟨S200000x1, .f32⟩
  | .hbm, ⟨65, _⟩ => ⟨S6600000x1, .i32⟩
  | .hbm, ⟨66, _⟩ => ⟨S200000x1, .f32⟩
  | .hbm, ⟨67, _⟩ => ⟨S1x1, .f32⟩
  | .hbm, ⟨68, _⟩ => ⟨S200000x1, .f32⟩
  | .hbm, ⟨69, _⟩ => ⟨S200000x1, .f32⟩
  | .hbm, ⟨70, _⟩ => ⟨S_, .f32⟩
  | .hbm, ⟨71, _⟩ => ⟨S200000x1, .f32⟩
  | .hbm, ⟨72, _⟩ => ⟨S200000x1, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call2_cst : Ref sig .tc := ⟨.hbm, 70, rfl⟩
abbrev main_call2_v0 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x1_S200000x1_1_0_0_1_n_n_wf : DotDims.WF S200000x128 S128x1 S200000x1 [1] [0] [0] [1] [] []
  gather_S200000x1_S6600000x1_S6600000x1_1_0_n_n_0_1_11_wf : GatherDims.WF S200000x1 S6600000x1 S6600000x1 [1] [0] [] [0] [] 1 ![1, 1]
  scatter_S200000x1_S6600000x1_S6600000x1_1_0_0_1_wf : ScatterDims.WF S200000x1 S6600000x1 S6600000x1 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def gather_S200000x1_S6600000x1_S6600000x1_1_0_n_n_0_1_11 : GatherDims S200000x1 S6600000x1 S6600000x1 where
  offsetDims := [1]
  collapsedSliceDims := [0]
  operandBatchingDims := []
  startIndicesBatchingDims := []
  startIndexMap := [0]
  indexVectorDim := 1
  sliceSizes := ![1, 1]
  wf := gather_S200000x1_S6600000x1_S6600000x1_1_0_n_n_0_1_11_wf
def scatter_S200000x1_S6600000x1_S6600000x1_1_0_0_1 : ScatterDims S200000x1 S6600000x1 S6600000x1 where
  updateWindowDims := [1]
  insertedWindowDims := [0]
  scatterDimsToOperandDims := [0]
  indexVectorDim := 1
  wf := scatter_S200000x1_S6600000x1_S6600000x1_1_0_0_1_wf

class Facts : Prop extends Facts₀ where

variable [Facts]
-- ==== Proof.KRun.lean ====
import proofs.«167258_j6889127543165_2_alg».proof.Proof.Gen.KernelIdeal.Frame

/-!
# The idealized kernel's run, with the result array named

The program is two pipelined regions among stretches of host operations. Its run ends with every
unscoped buffer at the last boundary's contents: the fold of the host stretches and of the two regions'
write-backs from the launch memory. Here that is read at the result array and at the four arguments.
-/

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the
    last boundary's contents and the four argument arrays as launched. -/
theorem run_val : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v33 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.KValue

end
-- ==== Proof.KRegion0.lean ====
import proofs.«167258_j6889127543165_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The first region as one function of the arrays it finds

The region runs over 50 points; at point `t` it reads rows `4000 t … 4000 t + 3999` of the feature matrix
`x : [200000, 128]` and of a one-column array `d`, and the whole weight column `w : [128, 1]`, and writes
`(x · w) · d` to the same rows of its result: at the ideal instance the matrix product of a row block is,
row by row, the sum over the 128 features of `x[row, k] · w[k, 0]` (the change of float format before the
product is the identity). The fifty row blocks tile the result.
-/

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin2' : (![0, 0] : Fin 2 → Nat) = fun _ => 0 := funext fun a => by fin_cases a <;> rfl

/-- Entry `(row of i, k)` of the feature matrix. -/
abbrev featIdx (i : S200000x1.Idx) (k : Fin 128) : S200000x128.Idx := fun a => match a with
  | ⟨0, _⟩ => ⟨(i 0).val, (i 0).isLt⟩
  | ⟨1, _⟩ => ⟨k.val, k.isLt⟩
/-- Entry `(k, column of i)` of the weight column. -/
abbrev wgtIdx (i : S200000x1.Idx) (k : Fin 128) : S128x1.Idx := fun a => match a with
  | ⟨0, _⟩ => ⟨k.val, k.isLt⟩
  | ⟨1, _⟩ => ⟨(i 1).val, (i 1).isLt⟩

/-- What the first region's result array ends holding: at every row, the row of `x` times the weight
    column, times `d` at that row. -/
def scaled_matvec (x : S200000x128.Idx → Elt Ideal .f32) (w : S128x1.Idx → Elt Ideal .f32)
    (d : S200000x1.Idx → Elt Ideal .f32) : S200000x1.Idx → Elt Ideal .f32 :=
  fun i => (∑ k : Fin 128, x (featIdx i k) * w (wgtIdx i k)) * d i

/-- The same two entries inside a row block. -/
abbrev featBlk (j : S4000x1.Idx) (k : Fin 128) : S4000x128.Idx := fun a => match a with
  | ⟨0, _⟩ => ⟨(j 0).val, (j 0).isLt⟩
  | ⟨1, _⟩ => ⟨k.val, k.isLt⟩
abbrev wgtBlk (j : S4000x1.Idx) (k : Fin 128) : S128x1.Idx := fun a => match a with
  | ⟨0, _⟩ => ⟨k.val, k.isLt⟩
  | ⟨1, _⟩ => ⟨(j 1).val, (j 1).isLt⟩

theorem lhsK_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhsK_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhsK_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhsK_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The block's matrix product at a row: the sum over the features. -/
theorem matmul_blk_apply (l : FVec Ideal S4000x128 .bf16) (r : FVec Ideal S128x1 .bf16) (i : S4000x1.Idx) :
    matmul dot_S4000x128_S128x1_S4000x1_1_0_0_1_n_n none l r (constant (F := Ideal) S4000x1 .f32 0x00000000#32) i
      = ∑ k : Fin 128, l (featBlk i k) * r (wgtBlk i k) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx i ((ValueIdx.contrEquiv1 dot_S4000x128_S128x1_S4000x1_1_0_0_1_n_n 128 rfl rfl).symm k) = featBlk i k := funext fun a => Fin.ext (by
    match a with
    | ⟨0, _⟩ => exact lhsK_0 _ _
    | ⟨1, _⟩ => exact (lhsK_1 _ _).trans hk)
  have er : dot_S4000x128_S128x1_S4000x1_1_0_0_1_n_n.rhsIdx i ((ValueIdx.contrEquiv1 dot_S4000x128_S128x1_S4000x1_1_0_0_1_n_n 128 rfl rfl).symm k) = wgtBlk i k := funext fun a => Fin.ext (by
    match a with
    | ⟨0, _⟩ => exact (rhsK_0 _ _).trans hk
    | ⟨1, _⟩ => exact rhsK_1 _ _)
  rw [el, er]

/-- The body's stored value at a row of the block. -/
theorem pay0_apply (x0 : Vec Ideal S4000x128 .f32) (x1 : Vec Ideal S128x1 .f32) (x2 : Vec Ideal S4000x1 .f32)
    (j : S4000x1.Idx) :
    k0_pay1 x0 x1 x2 j = (∑ k : Fin 128, x0 (featBlk j k) * x1 (wgtBlk j k)) * x2 j := by
  unfold k0_pay1
  simp only [shapeCast_self]
  show (matmul dot_S4000x128_S128x1_S4000x1_1_0_0_1_n_n none (truncf .bf16 x0 bitsLt_bf16_f32) (truncf .bf16 x1 bitsLt_bf16_f32)
      (constant (F := Ideal) S4000x1 .f32 0x00000000#32)) j * x2 j = _
  rw [matmul_blk_apply]
  rfl

/-- The printed index maps over the grid: the feature rows and the column `d` move with the output, one
    block of 4000 rows per point; the weight column's block stays at the origin. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaled_matvec` of the arrays as the region finds them. -/
theorem flushed0_eq (c : Dev nD) (t : Fin cfg0.N) :
    (dat0 V c).flushed 3 t = ((cfg0.win 3).blk t).view.read (Elt Ideal)
      (scaled_matvec (V c main_arg0) (V c main_arg2) (V c main_v18)) := by
  show (cfg0.win 3).cut (grid0.coords t) ((dat0 V c).after 3 t) = _
  rw [after0_3]
  unfold out0_3
  rw [View.canon_unit_zero origin2']
  simp only [View.ld_unit_zero (S := S4000x128) origin2', View.ld_unit_zero (S := S128x1) origin2',
    View.ld_unit_zero (S := S4000x1) origin2']
  obtain ⟨e0, e1, e2, e3, e4, e5, e6, e7⟩ := idx_facts0 t
  funext j
  refine (pay0_apply (iblk0 V c 0 t) (iblk0 V c 1 t) (iblk0 V c 2 t) j).trans ?_
  have hj0 : (j 0).val < 4000 := (j 0).isLt
  have hj1 : (j 1).val < 1 := (j 1).isLt
  have h0 : ∀ k : Fin 128, ((cfg0.win 0).blk t).view.emb (featBlk j k) = featIdx (((cfg0.win 3).blk t).view.emb j) k := by
    intro k
    have hk : k.val < 128 := k.isLt
    funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 128 + 1 * k.val = k.val; omega
  have h1 : ∀ k : Fin 128, ((cfg0.win 1).blk t).view.emb (wgtBlk j k) = wgtIdx (((cfg0.win 3).blk t).view.emb j) k := by
    intro k
    have hk : k.val < 128 := k.isLt
    funext a; apply Fin.ext
    match a with
    | ⟨0, _⟩ => show win0_1.index t (0 : Fin 2) * 128 + 1 * k.val = k.val; omega
    | ⟨1, _⟩ => show win0_1.index t (1 : Fin 2) * 1 + 1 * (j 1).val = win0_3.index t (1 : Fin 2) * 1 + 1 * (j 1).val; omega
  have h2 : ((cfg0.win 2).blk t).view.emb j = ((cfg0.win 3).blk t).view.emb j := by
    funext a; apply Fin.ext
    match a with
    | ⟨0, _⟩ => show win0_2.index t (0 : Fin 2) * 4000 + 1 * (j 0).val = win0_3.index t (0 : Fin 2) * 4000 + 1 * (j 0).val; omega
    | ⟨1, _⟩ => show win0_2.index t (1 : Fin 2) * 1 + 1 * (j 1).val = win0_3.index t (1 : Fin 2) * 1 + 1 * (j 1).val; omega
  suffices hs : ∀ (X : S200000x128.Idx → EReal) (W : S128x1.Idx → EReal) (D : S200000x1.Idx → EReal),
      (∑ k : Fin 128, X (((cfg0.win 0).blk t).view.emb (featBlk j k)) * W (((cfg0.win 1).blk t).view.emb (wgtBlk j k)))
        * D (((cfg0.win 2).blk t).view.emb j)
      = (∑ k : Fin 128, X (featIdx (((cfg0.win 3).blk t).view.emb j) k) * W (wgtIdx (((cfg0.win 3).blk t).view.emb j) k))
        * D (((cfg0.win 3).blk t).view.emb j) from
    hs (V c main_arg0) (V c main_arg2) (V c main_v18)
  intro X W D
  rw [h2]
  congr 1
  exact Finset.sum_congr rfl fun k _ => by rw [h0 k, h1 k]

/-- An index of the array is in point `t`'s block iff each coordinate is in the block's range on its axis. -/
theorem mem_blk0 (t : Fin cfg0.N) (i : S200000x1.Idx) :
    i ∈ ((cfg0.win 3).blk t).view.set ↔ ∀ a : Fin 2, win0_3.index t a * S4000x1.size a ≤ (i a).val
      ∧ (i a).val < win0_3.index t a * S4000x1.size a + S4000x1.size a := by
  show i ∈ ((View.whole main_v19).slice (win0_3.rect t)).set ↔ _
  rw [View.set_slice_whole, Rect.mem_set_unit]
  exact Iff.rfl

/-- Every row of the result is in the block of the point `row / 4000`. -/
theorem cover0 (i : S200000x1.Idx) :
    ∃ t : Fin cfg0.N, (cfg0.win 3).flush t = true ∧ i ∈ ((cfg0.win 3).blk t).view.set := by
  have hi0 : (i 0).val < 200000 := (i 0).isLt
  have hi1 : (i 1).val < 1 := (i 1).isLt
  have hN : cfg0.N = 50 := N_0
  let t : Fin cfg0.N := ⟨(i 0).val / 4000, by rw [hN]; omega⟩
  obtain ⟨e0, e1, -⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 1 ≤ (i 1).val ∧ (i 1).val < win0_3.index t (1 : Fin 2) * 1 + 1; omega

/-- The first region's result array after the region, from any entry contents `V`. -/
theorem final0 (c : Dev nD) :
    (dat0 V c).arrAt 3 cfg0.N = scaled_matvec (V c main_arg0) (V c main_arg2) (V c main_v18) :=
  (dat0 V c).arrAt_eq_of_cover 3 _ (fun t _ => flushed0_eq V c t) cover0

end Cert.KernelIdeal.KValue

end
-- ==== Proof.KRegion1.lean ====
import proofs.«167258_j6889127543165_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The second region as one function of the arrays it finds

The region runs over 50 points; at point `t` it reads rows `4000 t … 4000 t + 3999` of two one-column
arrays `a` and `d` and the single element of `b`, and writes `max (a · d + b, 0)` to the same rows of its
result. The fifty row blocks tile the result, so the whole array ends as `max (a i · d i + b, 0)` at
every row `i`.
-/

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin2 : (![0, 0] : Fin 2 → Nat) = fun _ => 0 := funext fun a => by fin_cases a <;> rfl

/-- The single index of a one-by-one array. -/
abbrev unit11 : S1x1.Idx := fun a => match a with | ⟨0, _⟩ => ⟨0, Nat.one_pos⟩ | ⟨1, _⟩ => ⟨0, Nat.one_pos⟩

/-- What the second region's result array ends holding: at every row, `max (a · d + b, 0)`. -/
def relu_affine (a d : S200000x1.Idx → Elt Ideal .f32) (b : S1x1.Idx → Elt Ideal .f32) : S200000x1.Idx → Elt Ideal .f32 :=
  fun i => max (a i * d i + b unit11) 0

/-- The body's stored value at a row of the block: the product of the two loaded columns at that row, plus
    the loaded scalar, clipped below at zero. -/
theorem pay1_apply (x0 x1 : Vec Ideal S4000x1 .f32) (x2 : Vec Ideal S1x1 .f32) (j : S4000x1.Idx) :
    k1_pay1 x0 x1 x2 j = max (x0 j * x1 j + x2 unit11) 0 := by
  unfold k1_pay1
  simp only [shapeCast_self]
  show max ((x0 j * x1 j) + broadcastTo S4000x1 x2 broadcasts_S1x1_S4000x1 j) (Ideal.ofBits .f32 0x00000000#32) = _
  rw [Ideal.ofBits_zero_f32, broadcastTo_apply x2 broadcasts_S1x1_S4000x1 j unit11
    (fun a => by match a with | ⟨0, _⟩ => rfl | ⟨1, _⟩ => rfl)]

/-- The printed index maps over the grid: the two column inputs move with the output, one block of 4000 rows
    per point; the scalar's block stays at the origin. -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- What point `t` writes back is block `t` of `relu_affine` of the arrays as the region finds them. -/
theorem flushed1_eq (c : Dev nD) (t : Fin cfg1.N) :
    (dat1 V c).flushed 3 t = ((cfg1.win 3).blk t).view.read (Elt Ideal)
      (relu_affine (V c main_v31) (V c main_v18) (V c main_v32)) := by
  show (cfg1.win 3).cut (grid1.coords t) ((dat1 V c).after 3 t) = _
  rw [after1_3]
  unfold out1_3
  rw [View.canon_unit_zero origin2]
  simp only [View.ld_unit_zero (S := S4000x1) origin2, View.ld_unit_zero (S := S1x1) origin2]
  obtain ⟨e0, e1, e2, e3, e4, e5, e6, e7⟩ := idx_facts1 t
  funext j
  refine (pay1_apply (iblk1 V c 0 t) (iblk1 V c 1 t) (iblk1 V c 2 t) j).trans ?_
  have hj0 : (j 0).val < 4000 := (j 0).isLt
  have hj1 : (j 1).val < 1 := (j 1).isLt
  have h0 : ((cfg1.win 0).blk t).view.emb j = ((cfg1.win 3).blk t).view.emb j := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 1 + 1 * (j 1).val = win1_3.index t (1 : Fin 2) * 1 + 1 * (j 1).val; omega
  have h1 : ((cfg1.win 1).blk t).view.emb j = ((cfg1.win 3).blk t).view.emb j := by
    funext a; apply Fin.ext
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 1 + 1 * (j 1).val = win1_3.index t (1 : Fin 2) * 1 + 1 * (j 1).val; omega
  have h2 : ((cfg1.win 2).blk t).view.emb unit11 = unit11 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  suffices hs : ∀ (A D : S200000x1.Idx → EReal) (B : S1x1.Idx → EReal),
      max (A (((cfg1.win 0).blk t).view.emb j) * D (((cfg1.win 1).blk t).view.emb j)
        + B (((cfg1.win 2).blk t).view.emb unit11)) 0
      = max (A (((cfg1.win 3).blk t).view.emb j) * D (((cfg1.win 3).blk t).view.emb j) + B unit11) 0 from
    hs (V c main_v31) (V c main_v18) (V c main_v32)
  intro A D B
  rw [h0, h1, h2]

/-- An index of the array is in point `t`'s block iff each coordinate is in the block's range on its axis. -/
theorem mem_blk1 (t : Fin cfg1.N) (i : S200000x1.Idx) :
    i ∈ ((cfg1.win 3).blk t).view.set ↔ ∀ a : Fin 2, win1_3.index t a * S4000x1.size a ≤ (i a).val
      ∧ (i a).val < win1_3.index t a * S4000x1.size a + S4000x1.size a := by
  show i ∈ ((View.whole main_v33).slice (win1_3.rect t)).set ↔ _
  rw [View.set_slice_whole, Rect.mem_set_unit]
  exact Iff.rfl

/-- Every row of the result is in the block of the point `row / 4000`. -/
theorem cover1 (i : S200000x1.Idx) :
    ∃ t : Fin cfg1.N, (cfg1.win 3).flush t = true ∧ i ∈ ((cfg1.win 3).blk t).view.set := by
  have hi0 : (i 0).val < 200000 := (i 0).isLt
  have hi1 : (i 1).val < 1 := (i 1).isLt
  have hN : cfg1.N = 50 := N_1
  let t : Fin cfg1.N := ⟨(i 0).val / 4000, by rw [hN]; omega⟩
  obtain ⟨e0, e1, -⟩ := idx_facts1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 1 ≤ (i 1).val ∧ (i 1).val < win1_3.index t (1 : Fin 2) * 1 + 1; omega

/-- The second region's result array after the region, from any entry contents `V`. -/
theorem final1 (c : Dev nD) :
    (dat1 V c).arrAt 3 cfg1.N = relu_affine (V c main_v31) (V c main_v18) (V c main_v32) :=
  (dat1 V c).arrAt_eq_of_cover 3 _ (fun t _ => flushed1_eq V c t) cover1

end Cert.KernelIdeal.KValue

end
-- ==== Proof.KHost.lean ====
import proofs.«167258_j6889127543165_2_alg».proof.Proof.KRegion0
import proofs.«167258_j6889127543165_2_alg».proof.Proof.KRegion1
import Idealize.ShloMosaic.Lib.StableHlo.Run

/-!
# The idealized kernel's result array as one term of the arguments

The host operations before the first region build, from the edge array, the message sources `src` and
targets `dst` (each the edges' row followed by the self loops `0 … N − 1`), the target degrees (an
accumulating scatter of ones at `dst`) and `dinv`, the degrees' inverse square roots where positive and zero
elsewhere. The first region computes `hd = (x · w) · dinv`. Between the regions the host gathers `hd` at
`src` (negative indices wrapped once, then clamped) and accumulates it at `dst`. The second region finishes
with `max (agg · dinv + b, 0)`. Here the boundary contents of the generated run are read back, stretch by
stretch, to that composed term.
-/

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx

/-! ## The host stages, as functions of the arguments -/

/-- The self loops `0 … N − 1`. -/
def loopsT : IVec S200000 32 := iotaInDim S200000 32 0

/-- The message sources: the edge array's first row, then the self loops. -/
def srcT (ei : IVec S2x6400000 32) : IVec S6600000 32 :=
  concatenate S6600000 0
    [⟨S6400000, shapeCast S6400000 (extractStridedSlice S1x6400000 ![0, 0] ei slices_S2x6400000_S1x6400000_0_0)
        shapeCasts_S1x6400000_S6400000⟩, ⟨S200000, loopsT⟩] concatenates_S6400000_S200000_S6600000_d0

/-- The message targets: the edge array's second row, then the self loops. -/
def dstT (ei : IVec S2x6400000 32) : IVec S6600000 32 :=
  concatenate S6600000 0
    [⟨S6400000, shapeCast S6400000 (extractStridedSlice S1x6400000 ![1, 0] ei slices_S2x6400000_S1x6400000_1_0)
        shapeCasts_S1x6400000_S6400000⟩, ⟨S200000, loopsT⟩] concatenates_S6400000_S200000_S6600000_d0

/-- The all-zero vector of length `N`. -/
def zerosT : FVec Ideal S200000 .f32 :=
  broadcastInDim S200000 ![] bcast_S_S200000 (constant (F := Ideal) S_ .f32 0x00000000#32)

/-- The target degrees: ones accumulated at the targets. -/
def degT (ei : IVec S2x6400000 32) : FVec Ideal S200000 .f32 :=
  Host.scatterAdd scatter_S200000_S6600000x1_S6600000_n_0_0_1 zerosT
    (broadcastInDim S6600000x1 ![0] bcast_S6600000_S6600000x1_0 (dstT ei))
    (broadcastInDim S6600000 ![] bcast_S_S6600000 (constant (F := Ideal) S_ .f32 0x3F800000#32))

/-- `dinv`: the inverse square root of a positive degree, zero elsewhere. -/
def dinvT (ei : IVec S2x6400000 32) : FVec Ideal S200000 .f32 :=
  select (cmpf .ogt (degT ei) zerosT)
    (Host.rsqrt (select (cmpf .ogt (degT ei) zerosT) (degT ei)
      (broadcastInDim S200000 ![] bcast_S_S200000 (constant (F := Ideal) S_ .f32 0x3F800000#32))))
    zerosT

/-- A vector of indices with the negative ones wrapped once by `N`. -/
def wrapT (v : IVec S6600000 32) : IVec S6600000 32 :=
  select (cmpi .slt v (broadcastInDim S6600000 ![] bcast_S_S6600000 (constantI S_ 32 0#32)))
    (addi v (broadcastInDim S6600000 ![] bcast_S_S6600000 (constantI S_ 32 200000#32))) v

/-- The aggregate, as the one-column array the second region reads: the first region's result, flattened,
    gathered at the sources and accumulated at the targets. -/
def aggT (hd : FVec Ideal S200000x1 .f32) (src dst : IVec S6600000 32) : FVec Ideal S200000x1 .f32 :=
  shapeCast S200000x1
    (Host.scatterAdd scatter_S200000_S6600000x1_S6600000_n_0_0_1 zerosT
      (broadcastInDim S6600000x1 ![0] bcast_S6600000_S6600000x1_0 dst)
      (Host.gather gather_S200000_S6600000x1_S6600000_n_0_n_n_0_1_1
        (shapeCast S200000 hd shapeCasts_S200000x1_S200000)
        (broadcastInDim S6600000x1 ![0] bcast_S6600000_S6600000x1_0 (wrapT src))))
    shapeCasts_S200000_S200000x1

/-- `dinv` as the one-column array both regions read. -/
def dinvCol (ei : IVec S2x6400000 32) : FVec Ideal S200000x1 .f32 :=
  shapeCast S200000x1 (dinvT ei) shapeCasts_S200000_S200000x1

/-- The kernel's result array as one term of the arguments. -/
def kernelTerm (x : FVec Ideal S200000x128 .f32) (ei : IVec S2x6400000 32) (w : FVec Ideal S128x1 .f32)
    (b : FVec Ideal S1 .f32) : FVec Ideal S200000x1 .f32 :=
  relu_affine (aggT (scaled_matvec x w (dinvCol ei)) (srcT ei) (dstT ei)) (dinvCol ei)
    (shapeCast S1x1 b shapeCasts_S1_S1x1)

/-! ## The boundary contents, read back -/

variable (m : (ℓ : Loc nD τ sig) → Buf (Elt Ideal) ℓ) (ρ : Dev nD → PrngReg)

/-- At the first region's entry the feature matrix is the argument. -/
theorem V5_arg0 (c : Dev nD) : V5 m ρ c main_arg0 = m ((c : Thread nD τ).loc main_arg0) := by
  show StableHlo.after hostOps0_4 (StableHlo.after hostOps0_3 (StableHlo.after hostOps0_2
    (StableHlo.after hostOps0_1 (StableHlo.after hostOps0 (W0 m ρ c))))) (Proc.devRef .tc main_arg0) = _
  after_results_simp <;> rfl

/-- At the first region's entry the weight column is the argument. -/
theorem V5_arg2 (c : Dev nD) : V5 m ρ c main_arg2 = m ((c : Thread nD τ).loc main_arg2) := by
  show StableHlo.after hostOps0_4 (StableHlo.after hostOps0_3 (StableHlo.after hostOps0_2
    (StableHlo.after hostOps0_1 (StableHlo.after hostOps0 (W0 m ρ c))))) (Proc.devRef .tc main_arg2) = _
  after_results_simp <;> rfl

/-- At the first region's entry the bias is the argument. -/
theorem W5_arg3 (c : Dev nD) : W5 m ρ c (Proc.devRef .tc main_arg3) = m ((c : Thread nD τ).loc main_arg3) := by
  show StableHlo.after hostOps0_4 (StableHlo.after hostOps0_3 (StableHlo.after hostOps0_2
    (StableHlo.after hostOps0_1 (StableHlo.after hostOps0 (W0 m ρ c))))) (Proc.devRef .tc main_arg3) = _
  after_results_simp <;> rfl

/-- At the first region's entry the sources are the sources of the edge argument. -/
theorem W5_v3 (c : Dev nD) : W5 m ρ c (Proc.devRef .tc main_v3) = srcT (m ((c : Thread nD τ).loc main_arg1)) := by
  show StableHlo.after hostOps0_4 (StableHlo.after hostOps0_3 (StableHlo.after hostOps0_2
    (StableHlo.after hostOps0_1 (StableHlo.after hostOps0 (W0 m ρ c))))) (Proc.devRef .tc main_v3) = _
  after_results_simp <;> rfl

/-- At the first region's entry the targets are the targets of the edge argument. -/
theorem W5_v6 (c : Dev nD) : W5 m ρ c (Proc.devRef .tc main_v6) = dstT (m ((c : Thread nD τ).loc main_arg1)) := by
  show StableHlo.after hostOps0_4 (StableHlo.after hostOps0_3 (StableHlo.after hostOps0_2
    (StableHlo.after hostOps0_1 (StableHlo.after hostOps0 (W0 m ρ c))))) (Proc.devRef .tc main_v6) = _
  after_results_simp <;> rfl

/-! ### `dinv`, stretch by stretch -/

/-- After the first stretch the degrees are the degrees of the edge argument. -/
theorem W1_v10 (c : Dev nD) : W1 m ρ c (Proc.devRef .tc main_v10) = degT (m ((c : Thread nD τ).loc main_arg1)) := by
  show StableHlo.after hostOps0 (W0 m ρ c) (Proc.devRef .tc main_v10) = _
  after_results_simp <;> rfl

/-- After the first stretch the two positivity masks are those of the degrees. -/
theorem W1_v12 (c : Dev nD) :
    W1 m ρ c (Proc.devRef .tc main_v12) = cmpf .ogt (degT (m ((c : Thread nD τ).loc main_arg1))) zerosT := by
  show StableHlo.after hostOps0 (W0 m ρ c) (Proc.devRef .tc main_v12) = _
  after_results_simp <;> rfl
theorem W1_v14 (c : Dev nD) :
    W1 m ρ c (Proc.devRef .tc main_v14) = cmpf .ogt (degT (m ((c : Thread nD τ).loc main_arg1))) zerosT := by
  show StableHlo.after hostOps0 (W0 m ρ c) (Proc.devRef .tc main_v14) = _
  after_results_simp <;> rfl

/-- After the first stretch the scalar that replaces a zero degree is the constant one. -/
theorem W1_cst_3 (c : Dev nD) :
    W1 m ρ c (Proc.devRef .tc main_cst_3) = constant (F := Ideal) S_ .f32 0x3F800000#32 := by
  show StableHlo.after hostOps0 (W0 m ρ c) (Proc.devRef .tc main_cst_3) = _
  after_results_simp <;> rfl

/-- The four short stretches after the first, from any contents: the inverse square root of the degrees where the
    mask holds (the masked-out degrees replaced first), zero elsewhere, as a column. -/
theorem tail_v18 (Wp : Valuation τ sig (Elt Ideal)) :
    StableHlo.after hostOps0_4 (StableHlo.after hostOps0_3 (StableHlo.after hostOps0_2
      (StableHlo.after hostOps0_1 Wp))) (Proc.devRef .tc main_v18)
      = shapeCast S200000x1
          (select (Wp (Proc.devRef .tc main_v12))
            (Host.rsqrt (select (Wp (Proc.devRef .tc main_v14)) (Wp (Proc.devRef .tc main_v10))
              (broadcastInDim S200000 ![] bcast_S_S200000 (Wp (Proc.devRef .tc main_cst_3)))))
            zerosT)
          shapeCasts_S200000_S200000x1 := by
  after_results_simp <;> rfl

/-- At the first region's entry its third operand is `dinv` as a column. -/
theorem V5_v18 (c : Dev nD) : V5 m ρ c main_v18 = dinvCol (m ((c : Thread nD τ).loc main_arg1)) := by
  refine (tail_v18 (W1 m ρ c)).trans ?_
  rw [W1_v12 m ρ c, W1_v14 m ρ c, W1_v10 m ρ c, W1_cst_3 m ρ c]
  rfl

/-! ### Across the first region -/

/-- The first region leaves `(x · w) · dinv` in its result array. -/
theorem W6_v19 (c : Dev nD) : W6 m ρ c (Proc.devRef .tc main_v19)
    = scaled_matvec (m ((c : Thread nD τ).loc main_arg0)) (m ((c : Thread nD τ).loc main_arg2))
        (dinvCol (m ((c : Thread nD τ).loc main_arg1))) :=
  (W6_arr m ρ c 3).trans ((final0 (V5 m ρ) c).trans (by rw [V5_arg0, V5_arg2, V5_v18]))

/-- The first region touches neither the sources, the targets nor the bias, and reads `dinv` without writing it. -/
theorem W6_v3 (c : Dev nD) : W6 m ρ c (Proc.devRef .tc main_v3) = srcT (m ((c : Thread nD τ).loc main_arg1)) :=
  (W6_of_ne m ρ c main_v3 (by decide)).trans (W5_v3 m ρ c)
theorem W6_v6 (c : Dev nD) : W6 m ρ c (Proc.devRef .tc main_v6) = dstT (m ((c : Thread nD τ).loc main_arg1)) :=
  (W6_of_ne m ρ c main_v6 (by decide)).trans (W5_v6 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_v18 (c : Dev nD) : W6 m ρ c (Proc.devRef .tc main_v18) = dinvCol (m ((c : Thread nD τ).loc main_arg1)) :=
  (W6_arr m ρ c 2).trans (((dat0 (V5 m ρ) c).arrAt_in 2 rfl _).trans ((A_eq0 (V5 m ρ) c 2).trans (V5_v18 m ρ c)))

/-! ### The stretch between the regions, from any contents -/

theorem mid_v31 (Wp : Valuation τ sig (Elt Ideal)) :
    StableHlo.after hostOps1 Wp (Proc.devRef .tc main_v31)
      = aggT (Wp (Proc.devRef .tc main_v19)) (Wp (Proc.devRef .tc main_v3)) (Wp (Proc.devRef .tc main_v6)) := by
  after_results_simp <;> rfl
theorem mid_v18 (Wp : Valuation τ sig (Elt Ideal)) :
    StableHlo.after hostOps1 Wp (Proc.devRef .tc main_v18) = Wp (Proc.devRef .tc main_v18) := by
  after_results_simp <;> rfl
theorem mid_v32 (Wp : Valuation τ sig (Elt Ideal)) :
    StableHlo.after hostOps1 Wp (Proc.devRef .tc main_v32)
      = shapeCast S1x1 (Wp (Proc.devRef .tc main_arg3)) shapeCasts_S1_S1x1 := by
  after_results_simp <;> rfl

/-! ### The result -/

/-- THE KERNEL'S VALUE: the last boundary's contents at the result array are `kernelTerm` of the arguments. -/
theorem kernel_value (c : Dev nD) : W8 m ρ c (Proc.devRef .tc main_v33)
    = kernelTerm (m ((c : Thread nD τ).loc main_arg0)) (m ((c : Thread nD τ).loc main_arg1))
        (m ((c : Thread nD τ).loc main_arg2)) (m ((c : Thread nD τ).loc main_arg3)) := by
  refine (W8_arr m ρ c 3).trans ((final1 (V7 m ρ) c).trans ?_)
  show relu_affine (StableHlo.after hostOps1 (W6 m ρ c) (Proc.devRef .tc main_v31))
    (StableHlo.after hostOps1 (W6 m ρ c) (Proc.devRef .tc main_v18))
    (StableHlo.after hostOps1 (W6 m ρ c) (Proc.devRef .tc main_v32)) = _
  rw [mid_v31, mid_v18, mid_v32, W6_v19, W6_v3, W6_v6, W6_v18, W6_arg3]
  rfl

end Cert.KernelIdeal.KValue

end
-- ==== Proof.LibScatterAdd.lean ====
import Idealize.ShloMosaic.PureOps.ShapeOps
import Idealize.ShloMosaic.Lib.ValueIdx
import Mathlib.Data.BitVec

open scoped BigOperators

namespace Idealize.ShloMosaic.ScatterAdd

open Idealize.ShloMosaic Idealize.ShloMosaic.ValueIdx

/-- A left fold of functions whose every step adds `g m` at the point `i` reads there as the start
value at `i` plus the sum of the `g m`. -/
theorem foldl_apply_add {ι β M : Type*} [AddCommMonoid M] (step : (β → M) → ι → (β → M)) (g : ι → M)
    (i : β) (hstep : ∀ r m, step r m i = r i + g m) (l : List ι) (r0 : β → M) :
    (l.foldl step r0) i = r0 i + (l.map g).sum := by
  induction l generalizing r0 with
  | nil => simp
  | cons a l ih => rw [List.foldl_cons, ih, hstep, List.map_cons, List.sum_cons, add_assoc]

/-- A scatter whose body is integer addition, read at an operand index: the operand's element plus the
sum of the updates whose result index is that index (updates landing outside the operand are
dropped). -/
theorem scatter_add_apply {s si u : Shape} {w v : ℕ} (d : ScatterDims s si u) (x : IVec s v)
    (idx : IVec si w) (upd : IVec u v) (i : s.Idx) :
    Host.scatter d IntOp.addi x idx upd i
      = x i + ∑ j : u.Idx, if d.resultIdx? j idx = some i then upd j else 0 := by
  unfold Host.scatter
  refine (foldl_apply_add _
    (fun m => if d.resultIdx? (u.rowMajor.symm m) idx = some i then upd (u.rowMajor.symm m) else 0)
    i ?_ _ _).trans ?_
  · intro r m
    generalize hres : d.resultIdx? (u.rowMajor.symm m) idx = o
    cases o with
    | none => simp
    | some i0 =>
      by_cases hi : i = i0
      · subst hi
        simp [IntOp.addi]
      · have hne : ¬ (some i0 = some i) := fun h => hi (Option.some.inj h).symm
        simp [hne, hi]
  · congr 1
    rw [← Fin.sum_univ_def, ← Equiv.sum_comp u.rowMajor]
    simp only [Equiv.symm_apply_apply]

/-- A rank-one index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 n).symm f]
  rfl

/-! ## One index column: scattering `M` scalar updates into a length-`N` operand -/

section Bincount
variable (N M : ℕ)
  (wf : ScatterDims.WF (⟨1, ![N]⟩ : Shape) (⟨2, ![M, 1]⟩ : Shape) (⟨1, ![M]⟩ : Shape) [] [0] [0] 1)

/-- The dimension numbers of a scatter of `M` scalar updates into a length-`N` operand through an
`M × 1` array of indices: no window axes, the operand's one axis inserted and named by the start
index's one component, the index vector along axis one. -/
abbrev bincountDims :
    ScatterDims (⟨1, ![N]⟩ : Shape) (⟨2, ![M, 1]⟩ : Shape) (⟨1, ![M]⟩ : Shape) where
  updateWindowDims := []
  insertedWindowDims := [0]
  scatterDimsToOperandDims := [0]
  indexVectorDim := 1
  wf := wf

/-- The start of update `p` on the operand's axis is index `(p, 0)` read as a signed integer. -/
theorem bincount_start (idx : IVec (⟨2, ![M, 1]⟩ : Shape) 32) (p : Fin M) :
    (bincountDims N M wf).start (ix1 p) idx 0 = (idx (ix2 p ⟨0, Nat.one_pos⟩)).toInt := by
  unfold ScatterDims.start
  rw [dif_pos (show (0 : Fin 1) ∈ (bincountDims N M wf).scatterDimsToOperandDims from
    List.mem_singleton.mpr rfl)]
  have hsi : (bincountDims N M wf).siIdx (ix1 p)
      ⟨List.idxOf (0 : Fin 1) (bincountDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The window coordinate of every update is zero: the operand's one axis is inserted. -/
theorem bincount_window (p : Fin M) : (bincountDims N M wf).window (ix1 p) 0 = 0 := by
  unfold ScatterDims.window
  rw [dif_neg]
  intro hmem
  have h2 := (List.mem_filter.mp hmem).2
  simp at h2

/-- Update `p` lands on slot `k` exactly when its index, read as a signed integer, is `k`. -/
theorem bincount_resultIdx?_eq_some_iff (idx : IVec (⟨2, ![M, 1]⟩ : Shape) 32) (p : Fin M) (k : Fin N) :
    (bincountDims N M wf).resultIdx? (ix1 p) idx = some (ix1 k)
      ↔ (idx (ix2 p ⟨0, Nat.one_pos⟩)).toInt = (k.val : ℤ) := by
  have hs := bincount_start N M wf idx p
  have hw := bincount_window N M wf p
  have hk := k.isLt
  unfold ScatterDims.resultIdx?
  split
  · rename_i hc
    have h0 := hc 0
    rw [hs, hw] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((bincountDims N M wf).start (ix1 p) idx 0
        + (((bincountDims N M wf).window (ix1 p) 0 : ℕ) : ℤ)).toNat = k.val at h1
      rw [hs, hw] at h1
      omega
    · intro he
      funext a
      obtain rfl : a = 0 := Subsingleton.elim _ _
      apply Fin.ext
      show ((bincountDims N M wf).start (ix1 p) idx 0
        + (((bincountDims N M wf).window (ix1 p) 0 : ℕ) : ℤ)).toNat = k.val
      rw [hs, hw]
      omega
  · rename_i hc
    constructor
    · intro he
      exact absurd he (by simp)
    · intro he
      exfalso
      apply hc
      intro a
      obtain rfl : a = 0 := Subsingleton.elim _ _
      rw [hs, hw]
      show 0 ≤ (idx (ix2 p ⟨0, Nat.one_pos⟩)).toInt + ((0 : ℕ) : ℤ)
        ∧ (idx (ix2 p ⟨0, Nat.one_pos⟩)).toInt + ((0 : ℕ) : ℤ) < (N : ℤ)
      omega

end Bincount

/-- Scattering `M` scalar updates by addition into a length-`N` operand through an `M × 1` array of
indices, read at slot `k`: the operand's element plus the sum of the updates whose index, read as a
signed integer, is `k` (an index outside `[0, N)` lands nowhere). -/
theorem bincount_apply (N M : ℕ)
    (wf : ScatterDims.WF (⟨1, ![N]⟩ : Shape) (⟨2, ![M, 1]⟩ : Shape) (⟨1, ![M]⟩ : Shape) [] [0] [0] 1)
    (x : IVec (⟨1, ![N]⟩ : Shape) 32) (idx : IVec (⟨2, ![M, 1]⟩ : Shape) 32)
    (upd : IVec (⟨1, ![M]⟩ : Shape) 32) (k : Fin N) :
    Host.scatter
      ({ updateWindowDims := [], insertedWindowDims := [0], scatterDimsToOperandDims := [0],
         indexVectorDim := 1, wf := wf } :
        ScatterDims (⟨1, ![N]⟩ : Shape) (⟨2, ![M, 1]⟩ : Shape) (⟨1, ![M]⟩ : Shape))
      IntOp.addi x idx upd (ix1 k)
      = x (ix1 k) + ∑ p : Fin M,
          if (idx (ix2 p ⟨0, Nat.one_pos⟩)).toInt = (k.val : ℤ) then upd (ix1 p) else 0#32 := by
  show Host.scatter (bincountDims N M wf) IntOp.addi x idx upd (ix1 k) = _
  rw [scatter_add_apply, sum_idx1]
  congr 1
  apply Finset.sum_congr rfl
  intro p _
  by_cases hc : (idx (ix2 p ⟨0, Nat.one_pos⟩)).toInt = (k.val : ℤ)
  · rw [if_pos hc, if_pos ((bincount_resultIdx?_eq_some_iff N M wf idx p k).mpr hc)]
  · rw [if_neg hc, if_neg (fun h => hc ((bincount_resultIdx?_eq_some_iff N M wf idx p k).mp h))]
    rfl

end Idealize.ShloMosaic.ScatterAdd
-- ==== Proof.LibGatherScatterCol.lean ====
import Idealize.ShloMosaic.PureOps.ShapeOps
import Idealize.ShloMosaic.PureOps.Ideal
import Idealize.ShloMosaic.Lib.ValueIdx
import proofs.«167258_j6889127543165_2_alg».proof.Proof.LibScatterAdd

/-!
# Gathers and accumulating scatters through one column of indices, read at an index

An `M × 1` array of integer indices addresses the rows of an operand with `N` rows, the operand either a
vector `[N]` or a one-column matrix `[N, 1]`.

* A *gather* reads, for every `p < M`, the operand's row `clamp (idx p)`: the index read as a signed integer
  and clamped into `[0, N − 1]`.
* An *accumulating scatter* at the ideal instance (floats are extended reals) leaves in row `k` the operand's
  element plus the sum of those updates `p` whose index, read as a signed integer, is exactly `k`; an index
  outside `[0, N)` lands nowhere.
-/

open scoped BigOperators

namespace Idealize.ShloMosaic.GatherScatterCol

open Idealize.ShloMosaic Idealize.ShloMosaic.ValueIdx Idealize.ShloMosaic.ScatterAdd

/-- A sum over the index set of an `M × 1` array is the sum over its rows. -/
theorem sum_idxCol {A : Type*} [AddCommMonoid A] {M : ℕ} (f : (⟨2, ![M, 1]⟩ : Shape).Idx → A) :
    ∑ i, f i = ∑ p : Fin M, f (ix2 p ⟨0, Nat.one_pos⟩) := by
  rw [sum_idx2]
  apply Finset.sum_congr rfl
  intro p _
  rw [Fin.sum_univ_one]
  rfl

/-! ## The accumulating scatter into a one-column matrix -/

section ColScatter
variable (N M : ℕ)
  (wf : ScatterDims.WF (⟨2, ![N, 1]⟩ : Shape) (⟨2, ![M, 1]⟩ : Shape) (⟨2, ![M, 1]⟩ : Shape) [1] [0] [0] 1)

/-- The dimension numbers of a scatter of `M` one-element rows into an `N × 1` operand through an `M × 1`
array of indices: the updates' second axis is the window axis and goes to the operand's second axis, the
operand's first axis is inserted and named by the start index's one component. -/
abbrev colDims :
    ScatterDims (⟨2, ![N, 1]⟩ : Shape) (⟨2, ![M, 1]⟩ : Shape) (⟨2, ![M, 1]⟩ : Shape) where
  updateWindowDims := [1]
  insertedWindowDims := [0]
  scatterDimsToOperandDims := [0]
  indexVectorDim := 1
  wf := wf

/-- On the operand's row axis the start of update `(p, q)` is index `(p, 0)` read as a signed integer. -/
theorem col_start0 (idx : IVec (⟨2, ![M, 1]⟩ : Shape) 32) (p : Fin M) (q : Fin 1) :
    (colDims N M wf).start (ix2 p q) idx 0 = (idx (ix2 p ⟨0, Nat.one_pos⟩)).toInt := by
  unfold ScatterDims.start
  rw [dif_pos (show (0 : Fin 2) ∈ (colDims N M wf).scatterDimsToOperandDims from
    List.mem_singleton.mpr rfl)]
  have hsi : (colDims N M wf).siIdx (ix2 p q)
      ⟨List.idxOf (0 : Fin 2) (colDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- On the operand's column axis, which the start index does not name, the start is zero. -/
theorem col_start1 (idx : IVec (⟨2, ![M, 1]⟩ : Shape) 32) (p : Fin M) (q : Fin 1) :
    (colDims N M wf).start (ix2 p q) idx 1 = 0 := by
  unfold ScatterDims.start
  rw [dif_neg]
  intro h
  exact absurd (congrArg Fin.val (List.mem_singleton.mp h)) Nat.one_ne_zero

/-- The window coordinate on the inserted row axis is zero. -/
theorem col_window0 (p : Fin M) (q : Fin 1) : (colDims N M wf).window (ix2 p q) 0 = 0 := by
  unfold ScatterDims.window
  rw [dif_neg]
  intro hmem
  have h2 := (List.mem_filter.mp hmem).2
  simp at h2

/-- The window coordinate on the column axis is zero: the column has one element. -/
theorem col_window1 (p : Fin M) (q : Fin 1) : (colDims N M wf).window (ix2 p q) 1 = 0 := by
  have hw := ScatterDims.window_size (colDims N M wf) ⟨0, Nat.one_pos⟩
  unfold ScatterDims.window
  split
  · have hq : ∀ r : Fin 1, r.val = 0 := fun r => by omega
    exact hq _
  · rfl

/-- Update `(p, q)` lands on element `(k, r)` exactly when index `p`, read as a signed integer, is `k`. -/
theorem col_resultIdx?_eq_some_iff (idx : IVec (⟨2, ![M, 1]⟩ : Shape) 32) (p : Fin M) (q r : Fin 1)
    (k : Fin N) :
    (colDims N M wf).resultIdx? (ix2 p q) idx = some (ix2 k r)
      ↔ (idx (ix2 p ⟨0, Nat.one_pos⟩)).toInt = (k.val : ℤ) := by
  have hs0 := col_start0 N M wf idx p q
  have hs1 := col_start1 N M wf idx p q
  have hw0 := col_window0 N M wf p q
  have hw1 := col_window1 N M wf p q
  have hk := k.isLt
  have hr : r.val = 0 := by omega
  unfold ScatterDims.resultIdx?
  split
  · rename_i hc
    have h0 := hc 0
    rw [hs0, hw0] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((colDims N M wf).start (ix2 p q) idx 0
        + (((colDims N M wf).window (ix2 p q) 0 : ℕ) : ℤ)).toNat = k.val at h1
      rw [hs0, hw0] at h1
      omega
    · intro he
      funext a
      match a with
      | ⟨0, _⟩ =>
        apply Fin.ext
        show ((colDims N M wf).start (ix2 p q) idx 0
          + (((colDims N M wf).window (ix2 p q) 0 : ℕ) : ℤ)).toNat = k.val
        rw [hs0, hw0]
        omega
      | ⟨1, _⟩ =>
        apply Fin.ext
        show ((colDims N M wf).start (ix2 p q) idx 1
          + (((colDims N M wf).window (ix2 p q) 1 : ℕ) : ℤ)).toNat = r.val
        rw [hs1, hw1]
        omega
  · rename_i hc
    constructor
    · intro he
      exact absurd he (by simp)
    · intro he
      exfalso
      apply hc
      intro a
      match a with
      | ⟨0, _⟩ =>
        show 0 ≤ (colDims N M wf).start (ix2 p q) idx 0
            + (((colDims N M wf).window (ix2 p q) 0 : ℕ) : ℤ)
          ∧ (colDims N M wf).start (ix2 p q) idx 0
            + (((colDims N M wf).window (ix2 p q) 0 : ℕ) : ℤ) < (N : ℤ)
        rw [hs0, hw0]
        omega
      | ⟨1, _⟩ =>
        show 0 ≤ (colDims N M wf).start (ix2 p q) idx 1
            + (((colDims N M wf).window (ix2 p q) 1 : ℕ) : ℤ)
          ∧ (colDims N M wf).start (ix2 p q) idx 1
            + (((colDims N M wf).window (ix2 p q) 1 : ℕ) : ℤ) < ((1 : ℕ) : ℤ)
        rw [hs1, hw1]
        omega

/-- At the ideal instance, the accumulating scatter into an `N × 1` operand read at row `k`: the operand's
element plus the sum of the updates whose index, read as a signed integer, is `k`. -/
theorem ideal_colScatterAdd_apply (x : (⟨2, ![N, 1]⟩ : Shape).Idx → EReal)
    (idx : IVec (⟨2, ![M, 1]⟩ : Shape) 32) (upd : (⟨2, ![M, 1]⟩ : Shape).Idx → EReal) (k : Fin N)
    (r : Fin 1) :
    Ideal.hostScatterAdd (colDims N M wf) x idx upd (ix2 k r)
      = x (ix2 k r) + ∑ p : Fin M,
          if (idx (ix2 p ⟨0, Nat.one_pos⟩)).toInt = (k.val : ℤ) then upd (ix2 p ⟨0, Nat.one_pos⟩) else 0 := by
  unfold Ideal.hostScatterAdd
  rw [Finset.sum_filter, sum_idxCol]
  congr 1
  apply Finset.sum_congr rfl
  intro p _
  exact if_congr (col_resultIdx?_eq_some_iff N M wf idx p ⟨0, Nat.one_pos⟩ r k) rfl rfl

end ColScatter

/-! ## The accumulating scatter into a vector -/

/-- At the ideal instance, the accumulating scatter of `M` scalar updates into a length-`N` operand read at
slot `k`: the operand's element plus the sum of the updates whose index, read as a signed integer, is `k`. -/
theorem ideal_vecScatterAdd_apply (N M : ℕ)
    (wf : ScatterDims.WF (⟨1, ![N]⟩ : Shape) (⟨2, ![M, 1]⟩ : Shape) (⟨1, ![M]⟩ : Shape) [] [0] [0] 1)
    (x : (⟨1, ![N]⟩ : Shape).Idx → EReal) (idx : IVec (⟨2, ![M, 1]⟩ : Shape) 32)
    (upd : (⟨1, ![M]⟩ : Shape).Idx → EReal) (k : Fin N) :
    Ideal.hostScatterAdd (bincountDims N M wf) x idx upd (ix1 k)
      = x (ix1 k) + ∑ p : Fin M,
          if (idx (ix2 p ⟨0, Nat.one_pos⟩)).toInt = (k.val : ℤ) then upd (ix1 p) else 0 := by
  unfold Ideal.hostScatterAdd
  rw [Finset.sum_filter, sum_idx1]
  congr 1
  apply Finset.sum_congr rfl
  intro p _
  exact if_congr (bincount_resultIdx?_eq_some_iff N M wf idx p k) rfl rfl

/-! ## The gathers -/

section Gather
variable {α : Type} (N M : ℕ)

/-- The dimension numbers of `x[idx]` for a vector `x : [N]` and an `M × 1` array of indices: the operand's
one axis collapsed and named by the start index's one component, no offset axis. -/
abbrev vecGatherDims
    (wf : GatherDims.WF (⟨1, ![N]⟩ : Shape) (⟨2, ![M, 1]⟩ : Shape) (⟨1, ![M]⟩ : Shape) [] [0] [] [0] [] 1 ![1]) :
    GatherDims (⟨1, ![N]⟩ : Shape) (⟨2, ![M, 1]⟩ : Shape) (⟨1, ![M]⟩ : Shape) where
  offsetDims := []
  collapsedSliceDims := [0]
  operandBatchingDims := []
  startIndicesBatchingDims := []
  startIndexMap := [0]
  indexVectorDim := 1
  sliceSizes := ![1]
  wf := wf

/-- The vector gather read at `p`: the operand at index `p`, read signed and clamped into `[0, N − 1]`. -/
theorem vecGather_apply (hN : 0 < N)
    (wf : GatherDims.WF (⟨1, ![N]⟩ : Shape) (⟨2, ![M, 1]⟩ : Shape) (⟨1, ![M]⟩ : Shape) [] [0] [] [0] [] 1 ![1])
    (x : (⟨1, ![N]⟩ : Shape).Idx → α) (idx : IVec (⟨2, ![M, 1]⟩ : Shape) 32) (p : Fin M) :
    Host.gather (vecGatherDims N M wf) x idx (ix1 p)
      = x (ix1 ⟨min (idx (ix2 p ⟨0, Nat.one_pos⟩)).toInt.toNat (N - 1), by omega⟩) := by
  unfold Host.gather
  congr 1
  funext a
  obtain rfl : a = 0 := Subsingleton.elim _ _
  refine Fin.ext ?_
  show (vecGatherDims N M wf).start (ix1 p) idx 0 + (vecGatherDims N M wf).batchCoord (ix1 p) 0
    + (vecGatherDims N M wf).offCoord (ix1 p) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 p)
      ⟨List.idxOf (0 : Fin 1) (vecGatherDims N M wf).startIndexMap,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]
  rfl

/-- The dimension numbers of a row gather from a one-column matrix `x : [N, 1]` through an `M × 1` array of
indices: the row axis collapsed and named by the start index's one component, the column axis the offset
axis. -/
abbrev colGatherDims
    (wf : GatherDims.WF (⟨2, ![N, 1]⟩ : Shape) (⟨2, ![M, 1]⟩ : Shape) (⟨2, ![M, 1]⟩ : Shape) [1] [0] [] [0] [] 1
      ![1, 1]) :
    GatherDims (⟨2, ![N, 1]⟩ : Shape) (⟨2, ![M, 1]⟩ : Shape) (⟨2, ![M, 1]⟩ : Shape) where
  offsetDims := [1]
  collapsedSliceDims := [0]
  operandBatchingDims := []
  startIndicesBatchingDims := []
  startIndexMap := [0]
  indexVectorDim := 1
  sliceSizes := ![1, 1]
  wf := wf

/-- The row gather read at `(p, q)`: the operand's element `(clamp (idx p), q)`. -/
theorem colGather_apply (hN : 0 < N)
    (wf : GatherDims.WF (⟨2, ![N, 1]⟩ : Shape) (⟨2, ![M, 1]⟩ : Shape) (⟨2, ![M, 1]⟩ : Shape) [1] [0] [] [0] [] 1
      ![1, 1])
    (x : (⟨2, ![N, 1]⟩ : Shape).Idx → α) (idx : IVec (⟨2, ![M, 1]⟩ : Shape) 32) (p : Fin M) (q : Fin 1) :
    Host.gather (colGatherDims N M wf) x idx (ix2 p q)
      = x (ix2 ⟨min (idx (ix2 p ⟨0, Nat.one_pos⟩)).toInt.toNat (N - 1), by omega⟩ q) := by
  unfold Host.gather
  congr 1
  funext a
  match a with
  | ⟨0, _⟩ =>
    refine Fin.ext ?_
    show (colGatherDims N M wf).start (ix2 p q) idx 0 + (colGatherDims N M wf).batchCoord (ix2 p q) 0
      + (colGatherDims N M wf).offCoord (ix2 p q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (colGatherDims N M wf).startIndexMap from List.mem_singleton.mpr rfl)]
    have hsi : (colGatherDims N M wf).siIdx (ix2 p q)
        ⟨List.idxOf (0 : Fin 2) (colGatherDims N M wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    refine Fin.ext ?_
    have hq : ∀ r : Fin 1, r.val = 0 := fun r => by omega
    have hlt := GatherDims.lt (colGatherDims N M wf) (ix2 p q) idx 1
    show (colGatherDims N M wf).start (ix2 p q) idx 1 + (colGatherDims N M wf).batchCoord (ix2 p q) 1
      + (colGatherDims N M wf).offCoord (ix2 p q) 1 = q.val
    change (colGatherDims N M wf).start (ix2 p q) idx 1 + (colGatherDims N M wf).batchCoord (ix2 p q) 1
      + (colGatherDims N M wf).offCoord (ix2 p q) 1 < 1 at hlt
    rw [hq q]
    omega

end Gather

end Idealize.ShloMosaic.GatherScatterCol
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Bridge.lean ====
import proofs.«167258_j6889127543165_2_alg».proof.Proof.KHost
import proofs.«167258_j6889127543165_2_alg».proof.Proof.LibGatherScatterCol
import proofs.«167258_j6889127543165_2_alg».proof.Proof.LibColumn
import proofs.«167258_j6889127543165_2_alg».proof.ReferenceIdeal
import proofs.«167258_j6889127543165_2_alg».proof.Proof.Gen.ReferenceIdeal
import Idealize.ShloMosaic.Lib.Pipeline.Value
import Idealize.ShloMosaic.Lib.ValueIdx
import Idealize.ShloMosaic.PureOps.Ideal.Laws
import Mathlib.Data.EReal.Operations

/-!
# The kernel's term and the reference's term are one function

Write `h j = ∑ₖ x[j, k] · w[k, 0]`, `D j = dinv j`, `s p` for the clamped, once-wrapped source of message `p`
and `p → n` when the target of `p`, read as a signed integer, is `n`.

* The kernel computes `max ((∑_{p → n} h (s p) · D (s p)) · D n + b, 0)`: it scales by `D` at the source before the
  gather and by `D` at the target after the accumulation.
* The reference computes `max (∑_{p → n} h (s p) · (D (s p) · D (t p)) + b, 0)` with `t p` the clamped, once-wrapped
  target of `p`; when `p → n` the target is in range, so `t p = n`.

The two agree because `D n` is a nonnegative REAL (an inverse square root of a positive number, or zero; never an
infinity), and on the extended reals multiplication by a nonnegative real distributes over any finite sum,
while multiplication alone is associative.
-/

set_option maxRecDepth 16384

noncomputable section

open scoped BigOperators

namespace Cert.Gcn

open Cert.KernelIdeal Cert.KernelIdeal.Gen Cert.KernelIdeal.KValue
open Idealize.ShloMosaic Idealize.ShloMosaic.ValueIdx Idealize.ShloMosaic.GatherScatterCol
open Idealize.ShloMosaic.ScatterAdd

/-! ## The law on the extended reals -/

/-- Multiplication by a nonnegative real distributes over a finite sum of extended reals. -/
theorem sum_mul_coe_of_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Scaling each selected term at its source and the whole sum by a nonnegative real `r` is scaling each
    selected term by the product of the two factors. -/
theorem scaled_sum {ι : Type*} [Fintype ι] (c : ι → Prop) [DecidablePred c] (A B : ι → EReal) {r : ℝ} (hr : 0 ≤ r) :
    (∑ p, if c p then A p * B p else 0) * (r : EReal) = ∑ p, if c p then A p * (B p * (r : EReal)) else 0 := by
  rw [sum_mul_coe_of_nonneg _ _ hr]
  refine Finset.sum_congr rfl fun p _ => ?_
  by_cases h : c p
  · rw [if_pos h, if_pos h, mul_assoc]
  · rw [if_neg h, if_neg h, zero_mul]

/-! ## Small reads -/

/-- The one element of a length-one axis. -/
abbrev z1 : Fin 1 := ⟨0, Nat.one_pos⟩

/-- An index word read as a signed integer and clamped into `[0, N − 1]`. -/
def clampN (v : BitVec 32) : Fin 200000 := ⟨min v.toInt.toNat (200000 - 1), by omega⟩

/-- A scalar broadcast to any shape reads the scalar everywhere. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- A length-`M` vector broadcast to an `M × 1` column reads, at `(p, q)`, the vector at `p`. -/
theorem bcastCol_apply {α : Type} {M : ℕ} (h : (⟨1, ![M]⟩ : Shape).BroadcastsInDim ⟨2, ![M, 1]⟩ ![0]) (hM : M ≠ 1)
    (v : (⟨1, ![M]⟩ : Shape).Idx → α) (p : Fin M) (q : Fin 1) :
    broadcastInDim ⟨2, ![M, 1]⟩ ![0] h v (ix2 p q) = v (ix1 p) :=
  broadcastInDim_apply ![0] h v (ix2 p q) (ix1 p) (fun a => by
    match a with
    | ⟨0, _⟩ => show p.val = if M = 1 then 0 else p.val; rw [if_neg hM])

/-- An `[a, 1]` column cast to a length-`a` vector reads, at `p`, the column's row `p`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p z1) :=
  shapeCast_apply x h _ _ (by
    rw [Shape.rowMajor_val_two, Shape.rowMajor_val_one]
    show p.val * 1 + 0 = p.val
    omega)

/-- The all-zero vector reads zero. -/
theorem zerosT_apply (n : Fin 200000) : zerosT (ix1 n) = 0 := by
  unfold zerosT
  rw [bcastScalar_apply]
  exact Ideal.ofBits_zero_f32

/-- The row of `x` at `i` times the weight column. -/
def matvec (x : S200000x128.Idx → EReal) (w : S128x1.Idx → EReal) (i : S200000x1.Idx) : EReal :=
  ∑ k : Fin 128, x (featIdx i k) * w (wgtIdx i k)

theorem scaled_matvec_apply (x : S200000x128.Idx → EReal) (w : S128x1.Idx → EReal) (d : S200000x1.Idx → EReal)
    (i : S200000x1.Idx) : scaled_matvec x w d i = matvec x w i * d i := rfl

/-! ## The kernel's term at an index -/

/-- The kernel's accumulating scatter read at a slot. -/
theorem scatK_apply (x : FVec Ideal S200000 .f32) (idx : IVec S6600000x1 32) (upd : FVec Ideal S6600000 .f32)
    (n : Fin 200000) :
    Host.scatterAdd scatter_S200000_S6600000x1_S6600000_n_0_0_1 x idx upd (ix1 n)
      = x (ix1 n) + ∑ p : Fin 6600000, if (idx (ix2 p z1)).toInt = (n.val : ℤ) then upd (ix1 p) else 0 :=
  ideal_vecScatterAdd_apply 200000 6600000 Facts₀.scatter_S200000_S6600000x1_S6600000_n_0_0_1_wf x idx upd n

/-- The kernel's gather read at a message. -/
theorem gathK_apply (x : FVec Ideal S200000 .f32) (idx : IVec S6600000x1 32) (p : Fin 6600000) :
    Host.gather gather_S200000_S6600000x1_S6600000_n_0_n_n_0_1_1 x idx (ix1 p)
      = x (ix1 (clampN (idx (ix2 p z1)))) :=
  vecGather_apply 200000 6600000 (by decide) Facts₀.gather_S200000_S6600000x1_S6600000_n_0_n_n_0_1_1_wf x idx p

/-- The aggregate column at row `n`: the sum, over the messages whose target is `n`, of the first region's
    result at the message's source. -/
theorem aggT_apply (hd : FVec Ideal S200000x1 .f32) (src dst : IVec S6600000 32) (n : Fin 200000) (q : Fin 1) :
    aggT hd src dst (ix2 n q)
      = ∑ p : Fin 6600000, if (dst (ix1 p)).toInt = (n.val : ℤ)
          then hd (ix2 (clampN (wrapT src (ix1 p))) z1) else 0 := by
  unfold aggT
  rw [Cert.Lib.shapeCast_a_a1_apply, scatK_apply, zerosT_apply, zero_add]
  refine Finset.sum_congr rfl fun p _ => ?_
  rw [bcastCol_apply bcast_S6600000_S6600000x1_0 (by decide) dst p z1, gathK_apply,
    bcastCol_apply bcast_S6600000_S6600000x1_0 (by decide) (wrapT src) p z1, shapeCast_a1_a_apply]

/-- The bias as the second region reads it. -/
theorem bias_apply (b : FVec Ideal S1 .f32) : shapeCast S1x1 b shapeCasts_S1_S1x1 unit11 = b (ix1 z1) :=
  shapeCast_apply b shapeCasts_S1_S1x1 _ _ (by
    rw [Shape.rowMajor_val_two, Shape.rowMajor_val_one]
    rfl)

/-- THE KERNEL'S TERM at row `n`. -/
theorem kernel_apply (x : FVec Ideal S200000x128 .f32) (w : FVec Ideal S128x1 .f32) (b : FVec Ideal S1 .f32)
    (dinv : FVec Ideal S200000 .f32) (src dst : IVec S6600000 32) (n : Fin 200000) (q : Fin 1) :
    relu_affine (aggT (scaled_matvec x w (shapeCast S200000x1 dinv shapeCasts_S200000_S200000x1)) src dst)
        (shapeCast S200000x1 dinv shapeCasts_S200000_S200000x1) (shapeCast S1x1 b shapeCasts_S1_S1x1) (ix2 n q)
      = max ((∑ p : Fin 6600000, if (dst (ix1 p)).toInt = (n.val : ℤ)
            then matvec x w (ix2 (clampN (wrapT src (ix1 p))) z1) * dinv (ix1 (clampN (wrapT src (ix1 p)))) else 0)
          * dinv (ix1 n) + b (ix1 z1)) 0 := by
  unfold relu_affine
  rw [aggT_apply, bias_apply, Cert.Lib.shapeCast_a_a1_apply]
  refine congrArg (fun A : EReal => max (A * dinv (ix1 n) + b (ix1 z1)) 0) ?_
  refine Finset.sum_congr rfl fun p _ => ?_
  rw [scaled_matvec_apply, Cert.Lib.shapeCast_a_a1_apply]

/-! ## The reference's term at an index -/

/-- The reference's result array as one term of the arguments and of the stages it shares with the kernel
    (`dinv`, the sources and the targets). -/
def refTerm (x : FVec Ideal S200000x128 .f32) (w : FVec Ideal S128x1 .f32) (b : FVec Ideal S1 .f32)
    (dinv : FVec Ideal S200000 .f32) (src dst : IVec S6600000 32) : FVec Ideal S200000x1 .f32 :=
  maximumf
    (addf
      (Host.scatterAdd Cert.ReferenceIdeal.scatter_S200000x1_S6600000x1_S6600000x1_1_0_0_1
        (broadcastInDim Cert.ReferenceIdeal.S200000x1 ![] Cert.ReferenceIdeal.Facts₀.bcast_S_S200000x1 (constant (F := Ideal) Cert.ReferenceIdeal.S_ .f32 0x00000000#32))
        (broadcastInDim Cert.ReferenceIdeal.S6600000x1 ![0] Cert.ReferenceIdeal.Facts₀.bcast_S6600000_S6600000x1_0 dst)
        (mulf
          (Host.gather Cert.ReferenceIdeal.gather_S200000x1_S6600000x1_S6600000x1_1_0_n_n_0_1_11
            (Host.dotGeneral Cert.ReferenceIdeal.dot_S200000x128_S128x1_S200000x1_1_0_0_1_n_n none x w)
            (broadcastInDim Cert.ReferenceIdeal.S6600000x1 ![0] Cert.ReferenceIdeal.Facts₀.bcast_S6600000_S6600000x1_0 (wrapT src)))
          (broadcastInDim Cert.ReferenceIdeal.S6600000x1 ![0] Cert.ReferenceIdeal.Facts₀.bcast_S6600000_S6600000x1_0
            (mulf
              (Host.gather Cert.ReferenceIdeal.gather_S200000_S6600000x1_S6600000_n_0_n_n_0_1_1 dinv
                (broadcastInDim Cert.ReferenceIdeal.S6600000x1 ![0] Cert.ReferenceIdeal.Facts₀.bcast_S6600000_S6600000x1_0 (wrapT src)))
              (Host.gather Cert.ReferenceIdeal.gather_S200000_S6600000x1_S6600000_n_0_n_n_0_1_1 dinv
                (broadcastInDim Cert.ReferenceIdeal.S6600000x1 ![0] Cert.ReferenceIdeal.Facts₀.bcast_S6600000_S6600000x1_0 (wrapT dst)))))))
      (broadcastInDim Cert.ReferenceIdeal.S200000x1 ![0, 1] Cert.ReferenceIdeal.Facts₀.bcast_S1x1_S200000x1_0_1
        (broadcastInDim Cert.ReferenceIdeal.S1x1 ![1] Cert.ReferenceIdeal.Facts₀.bcast_S1_S1x1_1 b)))
    (broadcastInDim Cert.ReferenceIdeal.S200000x1 ![] Cert.ReferenceIdeal.Facts₀.bcast_S_S200000x1 (constant (F := Ideal) Cert.ReferenceIdeal.S_ .f32 0x00000000#32))

/-- The reference's accumulating scatter into a column read at a row. -/
theorem scatR_apply (x : FVec Ideal S200000x1 .f32) (idx : IVec S6600000x1 32) (upd : FVec Ideal S6600000x1 .f32)
    (n : Fin 200000) (q : Fin 1) :
    Host.scatterAdd Cert.ReferenceIdeal.scatter_S200000x1_S6600000x1_S6600000x1_1_0_0_1 x idx upd (ix2 n q)
      = x (ix2 n q) + ∑ p : Fin 6600000, if (idx (ix2 p z1)).toInt = (n.val : ℤ) then upd (ix2 p z1) else 0 :=
  ideal_colScatterAdd_apply 200000 6600000 Cert.ReferenceIdeal.Facts₀.scatter_S200000x1_S6600000x1_S6600000x1_1_0_0_1_wf x idx upd n q

/-- The reference's row gather read at a message. -/
theorem gathR2_apply (x : FVec Ideal S200000x1 .f32) (idx : IVec S6600000x1 32) (p : Fin 6600000) (q : Fin 1) :
    Host.gather Cert.ReferenceIdeal.gather_S200000x1_S6600000x1_S6600000x1_1_0_n_n_0_1_11 x idx (ix2 p q)
      = x (ix2 (clampN (idx (ix2 p z1))) q) :=
  colGather_apply 200000 6600000 (by decide) Cert.ReferenceIdeal.Facts₀.gather_S200000x1_S6600000x1_S6600000x1_1_0_n_n_0_1_11_wf x idx p q

/-- The reference's vector gather read at a message. -/
theorem gathR1_apply (x : FVec Ideal S200000 .f32) (idx : IVec S6600000x1 32) (p : Fin 6600000) :
    Host.gather Cert.ReferenceIdeal.gather_S200000_S6600000x1_S6600000_n_0_n_n_0_1_1 x idx (ix1 p)
      = x (ix1 (clampN (idx (ix2 p z1)))) :=
  vecGather_apply 200000 6600000 (by decide) Cert.ReferenceIdeal.Facts₀.gather_S200000_S6600000x1_S6600000_n_0_n_n_0_1_1_wf x idx p

theorem lhsR_0 (i : S200000x1.Idx) (q : Cert.ReferenceIdeal.dot_S200000x128_S128x1_S200000x1_1_0_0_1_n_n.contr.Idx) :
    (Cert.ReferenceIdeal.dot_S200000x128_S128x1_S200000x1_1_0_0_1_n_n.lhsIdx i q 0).val = (i 0).val := by
  unfold DotDims.lhsIdx
  rw [dif_neg (show ¬(0 : Fin S200000x128.rank) ∈ Cert.ReferenceIdeal.dot_S200000x128_S128x1_S200000x1_1_0_0_1_n_n.lhsBatch by decide), dif_pos (show (0 : Fin S200000x128.rank) ∈ Cert.ReferenceIdeal.dot_S200000x128_S128x1_S200000x1_1_0_0_1_n_n.lhsNonContracting by decide)]
  rfl
theorem lhsR_1 (i : S200000x1.Idx) (q : Cert.ReferenceIdeal.dot_S200000x128_S128x1_S200000x1_1_0_0_1_n_n.contr.Idx) :
    (Cert.ReferenceIdeal.dot_S200000x128_S128x1_S200000x1_1_0_0_1_n_n.lhsIdx i q 1).val = (q ⟨0, by decide⟩).val :=
  Cert.ReferenceIdeal.dot_S200000x128_S128x1_S200000x1_1_0_0_1_n_n.lhsIdx_val_of_single rfl i q
theorem rhsR_0 (i : S200000x1.Idx) (q : Cert.ReferenceIdeal.dot_S200000x128_S128x1_S200000x1_1_0_0_1_n_n.contr.Idx) :
    (Cert.ReferenceIdeal.dot_S200000x128_S128x1_S200000x1_1_0_0_1_n_n.rhsIdx i q 0).val = (q ⟨0, by decide⟩).val :=
  Cert.ReferenceIdeal.dot_S200000x128_S128x1_S200000x1_1_0_0_1_n_n.rhsIdx_val_of_single rfl i q
theorem rhsR_1 (i : S200000x1.Idx) (q : Cert.ReferenceIdeal.dot_S200000x128_S128x1_S200000x1_1_0_0_1_n_n.contr.Idx) :
    (Cert.ReferenceIdeal.dot_S200000x128_S128x1_S200000x1_1_0_0_1_n_n.rhsIdx i q 1).val = (i 1).val := by
  unfold DotDims.rhsIdx
  rw [dif_neg (show ¬(1 : Fin S128x1.rank) ∈ Cert.ReferenceIdeal.dot_S200000x128_S128x1_S200000x1_1_0_0_1_n_n.rhsBatch by decide), dif_pos (show (1 : Fin S128x1.rank) ∈ Cert.ReferenceIdeal.dot_S200000x128_S128x1_S200000x1_1_0_0_1_n_n.rhsNonContracting by decide)]
  rfl

/-- The reference's matrix product at a row: the sum over the features. -/
theorem dotR_apply (x : FVec Ideal S200000x128 .f32) (w : FVec Ideal S128x1 .f32) (i : S200000x1.Idx) :
    Host.dotGeneral Cert.ReferenceIdeal.dot_S200000x128_S128x1_S200000x1_1_0_0_1_n_n none x w i = matvec x w i := by
  unfold matvec
  simp only [Host.dotGeneral]
  rw [Ideal.dotGeneral_apply, ← Equiv.sum_comp (ValueIdx.contrEquiv1 Cert.ReferenceIdeal.dot_S200000x128_S128x1_S200000x1_1_0_0_1_n_n 128 rfl rfl).symm]
  refine Finset.sum_congr rfl fun k _ => ?_
  have hk := ValueIdx.contrEquiv1_symm_val Cert.ReferenceIdeal.dot_S200000x128_S128x1_S200000x1_1_0_0_1_n_n 128 rfl rfl k
  have el : Cert.ReferenceIdeal.dot_S200000x128_S128x1_S200000x1_1_0_0_1_n_n.lhsIdx i ((ValueIdx.contrEquiv1 Cert.ReferenceIdeal.dot_S200000x128_S128x1_S200000x1_1_0_0_1_n_n 128 rfl rfl).symm k) = featIdx i k := funext fun a => Fin.ext (by
    match a with
    | ⟨0, _⟩ => exact lhsR_0 _ _
    | ⟨1, _⟩ => exact (lhsR_1 _ _).trans hk)
  have er : Cert.ReferenceIdeal.dot_S200000x128_S128x1_S200000x1_1_0_0_1_n_n.rhsIdx i ((ValueIdx.contrEquiv1 Cert.ReferenceIdeal.dot_S200000x128_S128x1_S200000x1_1_0_0_1_n_n 128 rfl rfl).symm k) = wgtIdx i k := funext fun a => Fin.ext (by
    match a with
    | ⟨0, _⟩ => exact (rhsR_0 _ _).trans hk
    | ⟨1, _⟩ => exact rhsR_1 _ _)
  rw [el, er]

/-- The bias as the reference adds it. -/
theorem biasR_apply (b : FVec Ideal S1 .f32) (n : Fin 200000) (q : Fin 1) :
    broadcastInDim Cert.ReferenceIdeal.S200000x1 ![0, 1] Cert.ReferenceIdeal.Facts₀.bcast_S1x1_S200000x1_0_1
      (broadcastInDim Cert.ReferenceIdeal.S1x1 ![1] Cert.ReferenceIdeal.Facts₀.bcast_S1_S1x1_1 b) (ix2 n q) = b (ix1 z1) := by
  rw [broadcastInDim_apply ![0, 1] Cert.ReferenceIdeal.Facts₀.bcast_S1x1_S200000x1_0_1 _ (ix2 n q) unit11
    (fun a => by match a with | ⟨0, _⟩ => rfl | ⟨1, _⟩ => rfl)]
  exact broadcastInDim_apply ![1] Cert.ReferenceIdeal.Facts₀.bcast_S1_S1x1_1 b unit11 (ix1 z1)
    (fun a => by match a with | ⟨0, _⟩ => rfl)

/-- THE REFERENCE'S TERM at row `n`. -/
theorem ref_apply (x : FVec Ideal S200000x128 .f32) (w : FVec Ideal S128x1 .f32) (b : FVec Ideal S1 .f32)
    (dinv : FVec Ideal S200000 .f32) (src dst : IVec S6600000 32) (n : Fin 200000) (q : Fin 1) :
    refTerm x w b dinv src dst (ix2 n q)
      = max ((∑ p : Fin 6600000, if (dst (ix1 p)).toInt = (n.val : ℤ)
            then matvec x w (ix2 (clampN (wrapT src (ix1 p))) z1)
              * (dinv (ix1 (clampN (wrapT src (ix1 p)))) * dinv (ix1 (clampN (wrapT dst (ix1 p))))) else 0)
          + b (ix1 z1)) 0 := by
  unfold refTerm
  rw [maximumf_apply, addf_apply, scatR_apply, biasR_apply, bcastScalar_apply]
  show max (Ideal.ofBits .f32 0x00000000#32 + _ + b (ix1 z1)) (Ideal.ofBits .f32 0x00000000#32) = _
  rw [Ideal.ofBits_zero_f32, zero_add]
  refine congrArg (fun A : EReal => max (A + b (ix1 z1)) 0) ?_
  refine Finset.sum_congr rfl fun p _ => ?_
  rw [bcastCol_apply Cert.ReferenceIdeal.Facts₀.bcast_S6600000_S6600000x1_0 (by decide) dst p z1, mulf_apply, gathR2_apply,
    bcastCol_apply Cert.ReferenceIdeal.Facts₀.bcast_S6600000_S6600000x1_0 (by decide) (wrapT src) p z1, dotR_apply,
    bcastCol_apply Cert.ReferenceIdeal.Facts₀.bcast_S6600000_S6600000x1_0 (by decide) _ p z1, mulf_apply, gathR1_apply, gathR1_apply,
    bcastCol_apply Cert.ReferenceIdeal.Facts₀.bcast_S6600000_S6600000x1_0 (by decide) (wrapT src) p z1,
    bcastCol_apply Cert.ReferenceIdeal.Facts₀.bcast_S6600000_S6600000x1_0 (by decide) (wrapT dst) p z1]

/-! ## The two terms agree -/

/-- A target word that reads as the row `n` is not negative, so wrapping leaves it alone, and clamping it
    gives `n`. -/
theorem clamp_wrap_of_hit (dst : IVec S6600000 32) (p : Fin 6600000) (n : Fin 200000)
    (h : (dst (ix1 p)).toInt = (n.val : ℤ)) : clampN (wrapT dst (ix1 p)) = n := by
  have hn := n.isLt
  have hw : wrapT dst (ix1 p) = dst (ix1 p) := by
    unfold wrapT
    rw [select_apply]
    show Scalar.select (IntOp.cmpi .slt (dst (ix1 p)) 0#32) _ _ = _
    have hs : IntOp.cmpi .slt (dst (ix1 p)) 0#32 = 0#1 := by
      unfold IntOp.cmpi
      show BitVec.ofBool ((dst (ix1 p)).slt 0#32) = 0#1
      rw [BitVec.slt_eq_decide, h]
      have : ¬ ((n.val : ℤ) < (0#32 : BitVec 32).toInt) := by
        rw [show (0#32 : BitVec 32).toInt = 0 from by decide]; omega
      rw [decide_eq_false this]
      rfl
    rw [hs, select_zero]
  unfold clampN
  apply Fin.ext
  show min (wrapT dst (ix1 p)).toInt.toNat (200000 - 1) = n.val
  rw [hw, h]
  omega

/-- THE BRIDGE: with `dinv` a nonnegative real at every node, the kernel's term is the reference's. -/
theorem kernel_eq_ref (x : FVec Ideal S200000x128 .f32) (w : FVec Ideal S128x1 .f32) (b : FVec Ideal S1 .f32)
    (dinv : FVec Ideal S200000 .f32) (src dst : IVec S6600000 32)
    (hD : ∀ n : Fin 200000, ∃ r : ℝ, 0 ≤ r ∧ dinv (ix1 n) = (r : EReal)) :
    relu_affine (aggT (scaled_matvec x w (shapeCast S200000x1 dinv shapeCasts_S200000_S200000x1)) src dst)
        (shapeCast S200000x1 dinv shapeCasts_S200000_S200000x1) (shapeCast S1x1 b shapeCasts_S1_S1x1)
      = refTerm x w b dinv src dst := by
  funext i
  obtain ⟨n, q, rfl⟩ : ∃ (n : Fin 200000) (q : Fin 1), i = ix2 n q := ⟨i 0, i 1, eq_ix2 i⟩
  rw [kernel_apply, ref_apply]
  obtain ⟨r, hr, hDn⟩ := hD n
  rw [hDn, scaled_sum _ _ _ hr]
  refine congrArg (fun A : EReal => max (A + b (ix1 z1)) 0) ?_
  refine Finset.sum_congr rfl fun p _ => ?_
  by_cases h : (dst (ix1 p)).toInt = (n.val : ℤ)
  · rw [if_pos h, if_pos h, clamp_wrap_of_hit dst p n h, hDn]
  · rw [if_neg h, if_neg h]

/-! ## `dinv` is a nonnegative real at every node -/

/-- Whatever the degree is, the inverse square root of it where positive, zero elsewhere, is a nonnegative
    real: a positive real gives the inverse of its root, `+∞` gives zero. -/
theorem inv_sqrt_or_zero (g one z : EReal) (hz : z = 0) :
    ∃ r : ℝ, 0 ≤ r ∧ Scalar.select (Ideal.cmp .ogt g z)
      (Ideal.rsqrt (Scalar.select (Ideal.cmp .ogt g z) g one)) z = (r : EReal) := by
  subst hz
  by_cases hg : (0 : EReal) < g
  · have hc : Ideal.cmp .ogt g 0 = 1#1 := by
      unfold Ideal.cmp
      show BitVec.ofBool (decide ((0 : EReal) < g)) = 1#1
      rw [decide_eq_true hg]; rfl
    rw [hc, select_one, select_one]
    induction g using EReal.rec with
    | bot => exact absurd hg (by simp)
    | top => exact ⟨0, le_refl _, by rw [Ideal.rsqrt_top]; rfl⟩
    | coe a =>
      have ha : 0 < a := by exact_mod_cast hg
      refine ⟨(Real.sqrt a)⁻¹, inv_nonneg.mpr (Real.sqrt_nonneg a), ?_⟩
      rw [Ideal.rsqrt_coe, if_neg (not_lt.mpr ha.le), if_neg (ne_of_gt ha)]
  · have hc : Ideal.cmp .ogt g 0 = 0#1 := by
      unfold Ideal.cmp
      show BitVec.ofBool (decide ((0 : EReal) < g)) = 0#1
      rw [decide_eq_false hg]; rfl
    rw [hc, select_zero]
    exact ⟨0, le_refl _, rfl⟩

/-- The host's inverse square root at an index, and a comparison of two elements, at the ideal instance. -/
theorem hostRsqrt_apply {s : Shape} {φ : FTy} (x : FVec Ideal s φ) (i : s.Idx) : Host.rsqrt x i = Ideal.rsqrt (x i) := rfl
theorem cmpf_ideal {φ : FTy} (p : CmpFPredicate) (a b : Ideal φ) : FloatOps.cmpf p a b = Ideal.cmp p a b := rfl

/-- `dinv` of any edge array is a nonnegative real at every node. -/
theorem dinvT_real (ei : IVec S2x6400000 32) (n : Fin 200000) :
    ∃ r : ℝ, 0 ≤ r ∧ dinvT ei (ix1 n) = (r : EReal) := by
  have key : dinvT ei (ix1 n)
      = Scalar.select (Ideal.cmp .ogt (degT ei (ix1 n)) (zerosT (ix1 n)))
          (Ideal.rsqrt (Scalar.select (Ideal.cmp .ogt (degT ei (ix1 n)) (zerosT (ix1 n))) (degT ei (ix1 n))
            (broadcastInDim S200000 ![] bcast_S_S200000 (constant (F := Ideal) S_ .f32 0x3F800000#32) (ix1 n))))
          (zerosT (ix1 n)) := by
    unfold dinvT
    rw [select_apply, cmpf_apply, hostRsqrt_apply, select_apply, cmpf_apply, cmpf_ideal]
  rw [key]
  exact inv_sqrt_or_zero _ _ _ (zerosT_apply n)

end Cert.Gcn

end
-- ==== Proof.RefValue.lean ====
import proofs.«167258_j6889127543165_2_alg».proof.Proof.RefRun
import proofs.«167258_j6889127543165_2_alg».proof.Proof.Bridge

/-!
# The reference's result is the reference's term

The reference's run ends with its result array at the composition of its 69 host operations. Its first
operations are the kernel's, word for word: the sources and targets, the degrees and `dinv`. So that
composed term is `refTerm` of the arguments and of those shared stages.
-/

noncomputable section

namespace Cert.ReferenceIdeal.RefValue

open Cert.ReferenceIdeal Cert.ReferenceIdeal.Gen Idealize.ShloMosaic Idealize.ShloMosaic.TcCoe Idealize.SL.Sem

set_option maxRecDepth 65536 in
set_option maxHeartbeats 4000000 in
/-- The reference's composed result is `refTerm` of the arguments and the shared stages of the edge argument. -/
theorem ref_value (m : (ℓ : Loc nD τ sig) → Buf (Elt Ideal) ℓ) (c : Dev nD) :
    Cert.ReferenceIdeal.ValueP.res_main_v49 m c
      = Cert.Gcn.refTerm (m ((c.tc : Thread nD τ).loc main_arg0)) (m ((c.tc : Thread nD τ).loc main_arg2))
          (m ((c.tc : Thread nD τ).loc main_arg3))
          (Cert.KernelIdeal.KValue.dinvT (m ((c.tc : Thread nD τ).loc main_arg1)))
          (Cert.KernelIdeal.KValue.srcT (m ((c.tc : Thread nD τ).loc main_arg1)))
          (Cert.KernelIdeal.KValue.dstT (m ((c.tc : Thread nD τ).loc main_arg1))) := by
  unfold Cert.ReferenceIdeal.ValueP.res_main_v49
  rfl

end Cert.ReferenceIdeal.RefValue

end
-- ==== Proof.lean ====
/-
  The certificate of a one-layer graph convolution: `out = relu (Â (x w) + b)` with `Â` the symmetrically
  normalized adjacency of the edge array with self loops added, `Â[n, s] = dinv n · dinv s` summed over the
  messages `s → n`, `dinv = deg^(-1/2)` where the target degree is positive and `0` elsewhere.

  The reference scales every message by `dinv (source) · dinv (target)` before accumulating it at its target.
  The kernel scales the node features once by `dinv` (fused into the matrix product, its first region), gathers
  and accumulates the scaled features, and scales the aggregate by `dinv` at the target in its second region, with
  the bias and the clipping at zero. At the ideal instance both are the same function of the arguments: `dinv` at a
  node is a nonnegative real, multiplication by a nonnegative real distributes over a finite sum of extended reals,
  and multiplication is associative (Proof/Bridge.lean). No input needs to be finite for that.

  The three frames are the generated ones (the reference's is its run with the result dropped); the idealization
  rewrote nothing, so `preserves` is trivial.
-/
import proofs.«167258_j6889127543165_2_alg».proof.Defs
import proofs.«167258_j6889127543165_2_alg».proof.Proof.Gen.Kernel
import proofs.«167258_j6889127543165_2_alg».proof.Proof.Gen.Kernel.Skeleton
import proofs.«167258_j6889127543165_2_alg».proof.Proof.Gen.Kernel.Launch
import proofs.«167258_j6889127543165_2_alg».proof.Proof.Gen.Kernel.Points
import proofs.«167258_j6889127543165_2_alg».proof.Proof.Gen.Kernel.Frame
import proofs.«167258_j6889127543165_2_alg».proof.Proof.Gen.KernelIdeal
import proofs.«167258_j6889127543165_2_alg».proof.Proof.Gen.KernelIdeal.Skeleton
import proofs.«167258_j6889127543165_2_alg».proof.Proof.Gen.KernelIdeal.Launch
import proofs.«167258_j6889127543165_2_alg».proof.Proof.Gen.KernelIdeal.Points
import proofs.«167258_j6889127543165_2_alg».proof.Proof.Gen.KernelIdeal.Frame
import proofs.«167258_j6889127543165_2_alg».proof.Proof.Gen.ReferenceIdeal
import proofs.«167258_j6889127543165_2_alg».proof.Proof.Gen.Pre_finite_inputs
import proofs.«167258_j6889127543165_2_alg».proof.Proof.KRun
import proofs.«167258_j6889127543165_2_alg».proof.Proof.KHost
import proofs.«167258_j6889127543165_2_alg».proof.Proof.Bridge
import proofs.«167258_j6889127543165_2_alg».proof.Proof.RefRun
import proofs.«167258_j6889127543165_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2)
    (Cert.ReferenceIdeal.ValueP.run (F := Ideal) m ρ)

theorem preserves : Cert.preserves_Kernel_KernelIdeal := trivial

/-- Both runs end with the result array at the kernel's term of the arguments: the kernel's by reading its
    boundary contents back, the reference's because its term is the same function (the bridge). -/
theorem algebraic : Cert.algebraic_KernelIdeal_ReferenceIdeal := by
  intro m ρ m' ρ' _ hagree
  refine ⟨fun c => Cert.KernelIdeal.KValue.kernelTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.kernel_value m ρ c), (h c).2⟩)
      (Cert.KernelIdeal.KValue.run_val (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.ref_value, (hagree c).1, (hagree c).2.1, (hagree c).2.2.1, (hagree c).2.2.2]
    exact (Cert.Gcn.kernel_eq_ref _ _ _ _ _ _ (Cert.Gcn.dinvT_real _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
